-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part4 {F : FTy → Type} [FloatOps F] (main_arg14 : FVec F S1x2048 .f32) (main_v63 : IVec S_ 1) (main_v67 : IVec S_ 1) : IVec S_ 1 :=
  let main_v68 : IVec S_ 1 := andi main_v63 main_v67
  let main_v69 : FVec F S1x2048 .f32 := Host.absf main_arg14
  let main_cst_26 : FVec F S_ .f32 := constant S_ .f32 0x7F800000#32
  let main_v70 : FVec F S1x2048 .f32 := broadcastInDim S1x2048 ![] bcast_S_S1x2048 main_cst_26
  let main_v71 : IVec S1x2048 1 := cmpf .olt main_v69 main_v70
  let main_c_27 : IVec S_ 1 := constantI S_ 1 1#1
  let main_v72 : IVec S_ 1 := (fun x v => Host.reduce IntOp.andi x v reducesTo_S1x2048_S_d0_1 h_S_) main_v71 main_c_27
  let main_v73 : IVec S_ 1 := andi main_v68 main_v72
  main_v73

def fn_part3 {F : FTy → Type} [FloatOps F] (main_arg11 : FVec F S1x2048 .f32) (main_arg12 : FVec F S1x2048 .f32) (main_arg13 : FVec F S1x2048 .f32) (main_arg14 : FVec F S1x2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S1x2048 .f32 := Host.absf main_arg11
  let main_cst_20 : FVec F S_ .f32 := constant S_ .f32 0x7F800000#32
  let main_v55 : FVec F S1x2048 .f32 := broadcastInDim S1x2048 ![] bcast_S_S1x2048 main_cst_20
  let main_v56 : IVec S1x2048 1 := cmpf .olt main_v54 main_v55
  let main_c_21 : IVec S_ 1 := constantI S_ 1 1#1
  let main_v57 : IVec S_ 1 := (fun x v => Host.reduce IntOp.andi x v reducesTo_S1x2048_S_d0_1 h_S_) main_v56 main_c_21
  let main_v58 : IVec S_ 1 := andi main_v53 main_v57
  let main_v59 : FVec F S1x2048 .f32 := Host.absf main_arg12
  let main_cst_22 : FVec F S_ .f32 := constant S_ .f32 0x7F800000#32
  let main_v60 : FVec F S1x2048 .f32 := broadcastInDim S1x2048 ![] bcast_S_S1x2048 main_cst_22
  let main_v61 : IVec S1x2048 1 := cmpf .olt main_v59 main_v60
  let main_c_23 : IVec S_ 1 := constantI S_ 1 1#1
  let main_v62 : IVec S_ 1 := (fun x v => Host.reduce IntOp.andi x v reducesTo_S1x2048_S_d0_1 h_S_) main_v61 main_c_23
  let main_v63 : IVec S_ 1 := andi main_v58 main_v62
  let main_v64 : FVec F S1x2048 .f32 := Host.absf main_arg13
  let main_cst_24 : FVec F S_ .f32 := constant S_ .f32 0x7F800000#32
  let main_v65 : FVec F S1x2048 .f32 := broadcastInDim S1x2048 ![] bcast_S_S1x2048 main_cst_24
  let main_v66 : IVec S1x2048 1 := cmpf .olt main_v64 main_v65
  let main_c_25 : IVec S_ 1 := constantI S_ 1 1#1
  let main_v67 : IVec S_ 1 := (fun x v => Host.reduce IntOp.andi x v reducesTo_S1x2048_S_d0_1 h_S_) main_v66 main_c_25
  fn_part4 (F := F) main_arg14 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S1x2048 .f32) (main_arg12 : FVec F S1x2048 .f32) (main_arg13 : FVec F S1x2048 .f32) (main_arg14 : FVec F S1x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S1x2048 .f32) (main_arg12 : FVec F S1x2048 .f32) (main_arg13 : FVec F S1x2048 .f32) (main_arg14 : FVec F S1x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S1x2048 .f32) (main_arg12 : FVec F S1x2048 .f32) (main_arg13 : FVec F S1x2048 .f32) (main_arg14 : FVec F S1x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x2048 : Shape := ⟨2, ![4096, 2048]⟩
abbrev S2048x2048 : Shape := ⟨2, ![2048, 2048]⟩
abbrev S1x2048 : Shape := ⟨2, ![1, 2048]⟩
abbrev S256x2048 : Shape := ⟨2, ![256, 2048]⟩
abbrev S256x256 : Shape := ⟨2, ![256, 256]⟩
abbrev S2048x256 : Shape := ⟨2, ![2048, 256]⟩
abbrev S1x256 : Shape := ⟨2, ![1, 256]⟩

abbrev nBuf : Space → Nat
  | .hbm => 17
  | .vmem => 34
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S4096x2048, .f32⟩
  | .hbm, ⟨16, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x256, .f32⟩
  | .local _ .vmem, ⟨3, _⟩ => ⟨S256x256, .f32⟩
  | .local _ .vmem, ⟨4, _⟩ => ⟨S256x2048, .f32⟩
  | .local _ .vmem, ⟨5, _⟩ => ⟨S256x2048, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  broadcasts_S1x256_S256x256 : S1x256.Broadcasts S256x256
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S4096x2048.size a
  hwx0_1 : ∀ i : grid0.Coords, EltTy.bits .f32 = 32 ∨ (Rect.block (s := S4096x2048) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .f32 = 32 ∨ (Rect.block (s := S4096x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .f32 = 32 ∨ (Rect.block (s := S2048x2048) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x2048.size a
  hwx0_4 : ∀ i : grid0.Coords, EltTy.bits .f32 = 32 ∨ (Rect.block (s := S2048x2048) S2048x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x2048.size a
  hwx0_5 : ∀ i : grid0.Coords, EltTy.bits .f32 = 32 ∨ (Rect.block (s := S2048x2048) S2048x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .f32 = 32 ∨ (Rect.block (s := S2048x2048) S2048x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .f32 = 32 ∨ (Rect.block (s := S2048x2048) S2048x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x2048.size a
  hwx0_8 : ∀ i : grid0.Coords, EltTy.bits .f32 = 32 ∨ (Rect.block (s := S2048x2048) S2048x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x2048.size a
  hwx0_9 : ∀ i : grid0.Coords, EltTy.bits .f32 = 32 ∨ (Rect.block (s := S2048x2048) S2048x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S2048x2048.size a
  hwx0_10 : ∀ i : grid0.Coords, EltTy.bits .f32 = 32 ∨ (Rect.block (s := S2048x2048) S2048x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S4096x2048.size a
  hwx0_15 : ∀ i : grid0.Coords, EltTy.bits .f32 = 32 ∨ (Rect.block (s := S4096x2048) S256x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x256.size a ≤ S4096x2048.size a
  hwx0_16 : ∀ i : grid0.Coords, EltTy.bits .f32 = 32 ∨ (Rect.block (s := S4096x2048) S256x256.size (cc0_transform_16 i) (hinb0_16 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2048x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2048x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_0) S256x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_1) S256x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.CellSpec.lean ====
/-
  The LSTM cell update as ONE function of the fifteen argument arrays, index by index, on the extended reals.

  Row `r` of the batch and column `n` of the features give, for each of the four gates, the pre-activation
    pre = (∑ₖ X[r,k]·Wx[k,n] + ∑ₖ H[r,k]·Wh[k,n]) + b[0,n]
  (the two length-2048 inner products of the input row and of the hidden row with the gate's two weight columns, then the bias).
  The new cell state and the output are
    C'[r,n] = tanh(pre_g) · σ(pre_i) + σ(pre_f) · C[r,n],        Y[r,n] = σ(pre_o) · tanh(C'[r,n]),
  with σ the logistic function. Everything is stated over rows and columns as functions `Fin 2048 → EReal`, so that
  the same definitions read a 256-row block of X against a 256-column block of a weight matrix and the whole arrays.
-/
import Idealize.ShloMosaic.PureOps.Ideal
import Idealize.ShloMosaic.Lib.ValueIdx

noncomputable section

open scoped BigOperators

namespace LstmCell

open Idealize.ShloMosaic Idealize.ShloMosaic.ValueIdx

/-- The batch-by-feature arrays X, C, H, C', Y. -/
abbrev Act : Shape := ⟨2, ![4096, 2048]⟩
/-- A weight matrix. -/
abbrev Wgt : Shape := ⟨2, ![2048, 2048]⟩
/-- A bias row. -/
abbrev Bias : Shape := ⟨2, ![1, 2048]⟩

/-- A gate's pre-activation from an input row, a hidden row, the gate's two weight columns and its bias entry:
    the two inner products added, then the bias. -/
def pre (xr hr wxc whc : Fin 2048 → EReal) (b : EReal) : EReal :=
  ((∑ k : Fin 2048, xr k * wxc k) + (∑ k : Fin 2048, hr k * whc k)) + b

/-- The same three terms with the bias added before the hidden row's inner product: addition of extended reals
    is commutative and associative (no finiteness is needed for that). -/
theorem pre_bias_first (xr hr wxc whc : Fin 2048 → EReal) (b : EReal) :
    ((∑ k : Fin 2048, xr k * wxc k) + b) + (∑ k : Fin 2048, hr k * whc k) = pre xr hr wxc whc b := by
  unfold pre
  exact add_right_comm _ _ _

/-- The new cell state from the forget, candidate and input pre-activations and the old cell state. -/
def cellOf (f g i c : EReal) : EReal := Ideal.tanh g * Ideal.logistic i + Ideal.logistic f * c

/-- The output from the output gate's pre-activation and the new cell state. -/
def hidOf (o c' : EReal) : EReal := Ideal.logistic o * Ideal.tanh c'

/-- The logistic function spelt with a negation, an exponential, a sum with one and a quotient is the logistic function
    (on every extended real: it is its definition). -/
theorem logistic_spelt (z : EReal) : Ideal.div 1 (1 + Ideal.exp (-z)) = Ideal.logistic z := rfl

/-- Row `r` of a batch-by-feature array. -/
abbrev row (A : Act.Idx → EReal) (r : Fin 4096) : Fin 2048 → EReal := fun k => A (ix2 r k)
/-- Column `n` of a weight matrix. -/
abbrev col (W : Wgt.Idx → EReal) (n : Fin 2048) : Fin 2048 → EReal := fun k => W (ix2 k n)
/-- Entry `n` of a bias row. -/
abbrev ent (b : Bias.Idx → EReal) (n : Fin 2048) : EReal := b (ix2 (0 : Fin 1) n)

/-- A gate's pre-activation at array index `i` = (r, n). -/
abbrev gate (X H : Act.Idx → EReal) (Wx Wh : Wgt.Idx → EReal) (b : Bias.Idx → EReal) (i : Act.Idx) : EReal :=
  pre (row X (i 0)) (row H (i 0)) (col Wx (i 1)) (col Wh (i 1)) (ent b (i 1))

/-- THE NEW CELL STATE, the first result, as a function of the arguments. -/
def cellArr (X C H : Act.Idx → EReal) (Wxf Wxg Wxi Whf Whg Whi : Wgt.Idx → EReal) (bf bg bi : Bias.Idx → EReal) :
    Act.Idx → EReal := fun i =>
  cellOf (gate X H Wxf Whf bf i) (gate X H Wxg Whg bg i) (gate X H Wxi Whi bi i) (C i)

/-- THE OUTPUT, the second result, as a function of the arguments. -/
def hidArr (X C H : Act.Idx → EReal) (Wxf Wxg Wxi Wxo Whf Whg Whi Who : Wgt.Idx → EReal) (bf bg bi bo : Bias.Idx → EReal) :
    Act.Idx → EReal := fun i =>
  hidOf (gate X H Wxo Who bo i) (cellArr X C H Wxf Wxg Wxi Whf Whg Whi bf bg bi i)

end LstmCell

end
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.BlockCell.lean ====
/-
  One grid point's two stored blocks, entry by entry, at the ideal values.

  A grid point holds a 256-row block of X and of H (all 2048 columns), a 256-column block of each of the eight weight
  matrices (all 2048 rows), the matching 256 entries of each bias row and the matching 256×256 block of C. Rounding the
  matrix operands to bf16 is the identity on extended reals, a matrix product accumulated into zero is, at (p, q), the
  inner product of row p of the left block with column q of the right block, and a bias row broadcast down the rows
  reads its entry q. So each gate's pre-activation at (p, q) is the specification's `pre` of those rows and columns,
  and the two stored values are the specification's `cellOf` and `hidOf` of them.
-/
import proofs.«110335_j16458314678399_2_alg».proof.Proof.Gen.KernelIdeal.Frame
import proofs.«110335_j16458314678399_2_alg».proof.Proof.CellSpec
import proofs.«110335_j16458314678399_2_alg».proof.Proof.LibRowOps
import Idealize.ShloMosaic.Lib.ValueLayout

noncomputable section

open scoped BigOperators

namespace Cert.KernelIdeal.BlockCell

open Cert.KernelIdeal Cert.KernelIdeal.Gen Idealize.ShloMosaic Idealize.ShloMosaic.ValueIdx LstmCell

/-- The body's dimension numbers are the plain 256×2048 by 2048×256 product's. -/
theorem dims_plain : dot_S256x2048_S2048x256_S256x256_1_0_0_1_n_n = DotDims.plain 256 2048 256 :=
  Cert.RowLib.dotDims_eq_plain _ rfl rfl rfl rfl rfl rfl

/-- A block product into zero at (p, q): row p of the left block against column q of the right block. -/
theorem prod_at (x : FVec Ideal S256x2048 .bf16) (w : FVec Ideal S2048x256 .bf16) (p q : Fin 256) :
    matmul dot_S256x2048_S2048x256_S256x256_1_0_0_1_n_n none x w (constant (F := Ideal) S256x256 .f32 0x00000000#32) (ix2 p q)
      = ∑ k : Fin 2048, x (ix2 p k) * w (ix2 k q) := by
  rw [dims_plain]
  exact Cert.RowLib.matmul_plain_zero_ix2 none x w p q

/-- A gate's pre-activation at entry (p, q) of the block, from the point's blocks. -/
abbrev bpre (x h : Vec Ideal S256x2048 .f32) (wx wh : Vec Ideal S2048x256 .f32) (b : Vec Ideal S1x256 .f32) (p q : Fin 256) : EReal :=
  pre (fun k => x (ix2 p k)) (fun k => h (ix2 p k)) (fun k => wx (ix2 k q)) (fun k => wh (ix2 k q)) (b (ix2 (0 : Fin 1) q))

/-- The forget gate's pre-activation as the body computes it (both products, then the bias). -/
theorem forget_at (v0 v2 : Vec Ideal S256x2048 .f32) (v5 v13 : Vec Ideal S2048x256 .f32) (v24 : Vec Ideal S1x256 .f32) (p q : Fin 256) :
    k0_pay9 v0 v2 v5 v13 v24 (ix2 p q) = bpre v0 v2 v5 v13 v24 p q := by
  unfold k0_pay9 k0_pay3 k0_pay4
  simp only [addf_apply, prod_at, broadcastTo_1b_ab_apply, truncf_apply]
  rfl

/-- The candidate's two products added, before its bias. -/
theorem cand_at (v0 v2 : Vec Ideal S256x2048 .f32) (v7 v15 : Vec Ideal S2048x256 .f32) (p q : Fin 256) :
    k0_pay10 v0 v2 v7 v15 (ix2 p q)
      = (∑ k : Fin 2048, v0 (ix2 p k) * v7 (ix2 k q)) + (∑ k : Fin 2048, v2 (ix2 p k) * v15 (ix2 k q)) := by
  unfold k0_pay10 k0_pay3 k0_pay4
  simp only [addf_apply, prod_at, truncf_apply]

/-- THE FIRST STORED BLOCK at (p, q): the new cell state of the point's rows and columns. -/
theorem cell_at (x0 x2 : Vec Ideal S256x2048 .f32) (x1 : Vec Ideal S256x256 .f32) (x3 x4 x5 x7 x8 x9 : Vec Ideal S2048x256 .f32)
    (x11 x12 x13 : Vec Ideal S1x256 .f32) (p q : Fin 256) :
    k0_pay1 (k0_pay3 x0) (k0_pay4 x2) x1 (k0_pay5 x5) (k0_pay7 x9) (k0_pay9 x0 x2 x3 x7 x11) (k0_pay10 x0 x2 x4 x8) x12 x13 (ix2 p q)
      = cellOf (bpre x0 x2 x3 x7 x11 p q) (bpre x0 x2 x4 x8 x12 p q) (bpre x0 x2 x5 x9 x13 p q) (x1 (ix2 p q)) := by
  unfold k0_pay1
  simp only [addf_apply, mulf_apply]
  show Ideal.tanh (k0_pay10 x0 x2 x4 x8 (ix2 p q) + broadcastTo S256x256 x12 broadcasts_S1x256_S256x256 (ix2 p q))
        * Ideal.logistic ((matmul dot_S256x2048_S2048x256_S256x256_1_0_0_1_n_n none (k0_pay3 x0) (k0_pay5 x5) (constant (F := Ideal) S256x256 .f32 0x00000000#32) (ix2 p q)
            + matmul dot_S256x2048_S2048x256_S256x256_1_0_0_1_n_n none (k0_pay4 x2) (k0_pay7 x9) (constant (F := Ideal) S256x256 .f32 0x00000000#32) (ix2 p q))
            + broadcastTo S256x256 x13 broadcasts_S1x256_S256x256 (ix2 p q))
      + Ideal.logistic (k0_pay9 x0 x2 x3 x7 x11 (ix2 p q)) * x1 (ix2 p q) = _
  rw [cand_at, forget_at, prod_at, prod_at, broadcastTo_1b_ab_apply, broadcastTo_1b_ab_apply]
  rfl

/-- THE SECOND STORED BLOCK at (p, q): the output of the point's rows and columns. -/
theorem hid_at (x0 x2 : Vec Ideal S256x2048 .f32) (x1 : Vec Ideal S256x256 .f32) (x3 x4 x5 x6 x7 x8 x9 x10 : Vec Ideal S2048x256 .f32)
    (x11 x12 x13 x14 : Vec Ideal S1x256 .f32) (p q : Fin 256) :
    k0_pay2 (k0_pay3 x0) (k0_pay4 x2) x1 (k0_pay5 x5) (k0_pay6 x6) (k0_pay7 x9) (k0_pay8 x10) (k0_pay9 x0 x2 x3 x7 x11) (k0_pay10 x0 x2 x4 x8) x12 x13 x14 (ix2 p q)
      = hidOf (bpre x0 x2 x6 x10 x14 p q)
          (cellOf (bpre x0 x2 x3 x7 x11 p q) (bpre x0 x2 x4 x8 x12 p q) (bpre x0 x2 x5 x9 x13 p q) (x1 (ix2 p q))) := by
  unfold k0_pay2
  simp only [mulf_apply]
  show Ideal.logistic ((matmul dot_S256x2048_S2048x256_S256x256_1_0_0_1_n_n none (k0_pay3 x0) (k0_pay6 x6) (constant (F := Ideal) S256x256 .f32 0x00000000#32) (ix2 p q)
            + matmul dot_S256x2048_S2048x256_S256x256_1_0_0_1_n_n none (k0_pay4 x2) (k0_pay8 x10) (constant (F := Ideal) S256x256 .f32 0x00000000#32) (ix2 p q))
            + broadcastTo S256x256 x14 broadcasts_S1x256_S256x256 (ix2 p q))
      * Ideal.tanh (k0_pay1 (k0_pay3 x0) (k0_pay4 x2) x1 (k0_pay5 x5) (k0_pay7 x9) (k0_pay9 x0 x2 x3 x7 x11) (k0_pay10 x0 x2 x4 x8) x12 x13 (ix2 p q)) = _
  rw [cell_at, prod_at, prod_at, broadcastTo_1b_ab_apply]
  rfl

end Cert.KernelIdeal.BlockCell

end
-- ==== Proof.ArrayCell.lean ====
/-
  From blocks to arrays: the kernel's two result arrays are the specification's.

  The grid has 8 × 16 points (j, i): feature tile j, batch tile i. Point (j, i) holds rows 256·i … 256·i + 255 of X and H,
  columns 256·j … 256·j + 255 of each weight matrix and bias row, and the (i, j) block of C; it writes the (i, j) block
  of each result. So what a point writes back is its block of ONE function of the whole arguments (`cellArr`, `hidArr`),
  the 128 blocks cover every index of the 4096 × 2048 results, and each result array ends equal to that function.
-/
import proofs.«110335_j16458314678399_2_alg».proof.Proof.Gen.KernelIdeal.Value
import proofs.«110335_j16458314678399_2_alg».proof.Proof.BlockCell

noncomputable section

open scoped BigOperators

namespace Cert.KernelIdeal.ArrayCell

open Cert.KernelIdeal Cert.KernelIdeal.Gen Idealize.ShloMosaic Idealize.ShloMosaic.TcCoe Idealize.SL.Sem
open Idealize.ShloMosaic.ValueIdx LstmCell
open Idealize.ShloMosaic.Pipeline (Dat)

/-! ## A block whose rows and columns are rows and columns of the arrays -/

section Blocks
variable (X C H : Act.Idx → EReal) (Wxf Wxg Wxi Wxo Whf Whg Whi Who : Wgt.Idx → EReal) (bf bg bi bo : Bias.Idx → EReal)
variable (x0 x2 : Vec Ideal S256x2048 .f32) (x1 : Vec Ideal S256x256 .f32) (x3 x4 x5 x6 x7 x8 x9 x10 : Vec Ideal S2048x256 .f32)
variable (x11 x12 x13 x14 : Vec Ideal S1x256 .f32)
/- the block's row p is row `R p` of the arrays, its column q is column `N q` -/
variable (R : Fin 256 → Fin 4096) (N : Fin 256 → Fin 2048)

/-- If the point's blocks are those rows and columns of the arrays, its first stored block is that block of the new cell state. -/
theorem cell_block (h0 : ∀ (p : Fin 256) (k : Fin 2048), x0 (ix2 p k) = X (ix2 (R p) k))
    (h2 : ∀ (p : Fin 256) (k : Fin 2048), x2 (ix2 p k) = H (ix2 (R p) k))
    (h1 : ∀ (p q : Fin 256), x1 (ix2 p q) = C (ix2 (R p) (N q)))
    (h3 : ∀ (k : Fin 2048) (q : Fin 256), x3 (ix2 k q) = Wxf (ix2 k (N q)))
    (h4 : ∀ (k : Fin 2048) (q : Fin 256), x4 (ix2 k q) = Wxg (ix2 k (N q)))
    (h5 : ∀ (k : Fin 2048) (q : Fin 256), x5 (ix2 k q) = Wxi (ix2 k (N q)))
    (h7 : ∀ (k : Fin 2048) (q : Fin 256), x7 (ix2 k q) = Whf (ix2 k (N q)))
    (h8 : ∀ (k : Fin 2048) (q : Fin 256), x8 (ix2 k q) = Whg (ix2 k (N q)))
    (h9 : ∀ (k : Fin 2048) (q : Fin 256), x9 (ix2 k q) = Whi (ix2 k (N q)))
    (h11 : ∀ q : Fin 256, x11 (ix2 (0 : Fin 1) q) = bf (ix2 (0 : Fin 1) (N q)))
    (h12 : ∀ q : Fin 256, x12 (ix2 (0 : Fin 1) q) = bg (ix2 (0 : Fin 1) (N q)))
    (h13 : ∀ q : Fin 256, x13 (ix2 (0 : Fin 1) q) = bi (ix2 (0 : Fin 1) (N q)))
    (p q : Fin 256) :
    k0_pay1 (k0_pay3 x0) (k0_pay4 x2) x1 (k0_pay5 x5) (k0_pay7 x9) (k0_pay9 x0 x2 x3 x7 x11) (k0_pay10 x0 x2 x4 x8) x12 x13 (ix2 p q)
      = cellArr X C H Wxf Wxg Wxi Whf Whg Whi bf bg bi (ix2 (R p) (N q)) := by
  rw [BlockCell.cell_at]
  unfold cellArr
  simp only [BlockCell.bpre, h0, h2, h1, h3, h4, h5, h7, h8, h9, h11, h12, h13]

/-- … and its second stored block is that block of the output. -/
theorem hid_block (h0 : ∀ (p : Fin 256) (k : Fin 2048), x0 (ix2 p k) = X (ix2 (R p) k))
    (h2 : ∀ (p : Fin 256) (k : Fin 2048), x2 (ix2 p k) = H (ix2 (R p) k))
    (h1 : ∀ (p q : Fin 256), x1 (ix2 p q) = C (ix2 (R p) (N q)))
    (h3 : ∀ (k : Fin 2048) (q : Fin 256), x3 (ix2 k q) = Wxf (ix2 k (N q)))
    (h4 : ∀ (k : Fin 2048) (q : Fin 256), x4 (ix2 k q) = Wxg (ix2 k (N q)))
    (h5 : ∀ (k : Fin 2048) (q : Fin 256), x5 (ix2 k q) = Wxi (ix2 k (N q)))
    (h6 : ∀ (k : Fin 2048) (q : Fin 256), x6 (ix2 k q) = Wxo (ix2 k (N q)))
    (h7 : ∀ (k : Fin 2048) (q : Fin 256), x7 (ix2 k q) = Whf (ix2 k (N q)))
    (h8 : ∀ (k : Fin 2048) (q : Fin 256), x8 (ix2 k q) = Whg (ix2 k (N q)))
    (h9 : ∀ (k : Fin 2048) (q : Fin 256), x9 (ix2 k q) = Whi (ix2 k (N q)))
    (h10 : ∀ (k : Fin 2048) (q : Fin 256), x10 (ix2 k q) = Who (ix2 k (N q)))
    (h11 : ∀ q : Fin 256, x11 (ix2 (0 : Fin 1) q) = bf (ix2 (0 : Fin 1) (N q)))
    (h12 : ∀ q : Fin 256, x12 (ix2 (0 : Fin 1) q) = bg (ix2 (0 : Fin 1) (N q)))
    (h13 : ∀ q : Fin 256, x13 (ix2 (0 : Fin 1) q) = bi (ix2 (0 : Fin 1) (N q)))
    (h14 : ∀ q : Fin 256, x14 (ix2 (0 : Fin 1) q) = bo (ix2 (0 : Fin 1) (N q)))
    (p q : Fin 256) :
    k0_pay2 (k0_pay3 x0) (k0_pay4 x2) x1 (k0_pay5 x5) (k0_pay6 x6) (k0_pay7 x9) (k0_pay8 x10) (k0_pay9 x0 x2 x3 x7 x11) (k0_pay10 x0 x2 x4 x8) x12 x13 x14 (ix2 p q)
      = hidArr X C H Wxf Wxg Wxi Wxo Whf Whg Whi Who bf bg bi bo (ix2 (R p) (N q)) := by
  rw [BlockCell.hid_at]
  unfold hidArr cellArr
  simp only [BlockCell.bpre, h0, h2, h1, h3, h4, h5, h6, h7, h8, h9, h10, h11, h12, h13, h14]

end Blocks

/-! ## The grid's index maps, decided over its 128 points -/

section Run
variable (m : (ℓ : Loc nD τ sig) → Buf (Elt Ideal) ℓ) (ρ : Dev nD → PrngReg)

theorem hz : (![0, 0] : Fin 2 → Nat) = fun _ => 0 := funext fun a => by fin_cases a <;> rfl

/-- X's and H's row blocks move with the result's row block and span all columns. -/
theorem idx_rows : ∀ t : Fin cfg0.N, win0_0.index t (0 : Fin 2) = win0_15.index t (0 : Fin 2) ∧ win0_0.index t (1 : Fin 2) = 0
    ∧ win0_2.index t (0 : Fin 2) = win0_15.index t (0 : Fin 2) ∧ win0_2.index t (1 : Fin 2) = 0 :=
  (by decide +kernel : ∀ t : Fin grid0.N, _)

/-- C's block and the second result's block are the first result's block. -/
theorem idx_same : ∀ t : Fin cfg0.N, win0_1.index t (0 : Fin 2) = win0_15.index t (0 : Fin 2) ∧ win0_1.index t (1 : Fin 2) = win0_15.index t (1 : Fin 2)
    ∧ win0_16.index t (0 : Fin 2) = win0_15.index t (0 : Fin 2) ∧ win0_16.index t (1 : Fin 2) = win0_15.index t (1 : Fin 2) :=
  (by decide +kernel : ∀ t : Fin grid0.N, _)

/-- Each weight matrix's and each bias row's column block moves with the result's column block and spans all rows. -/
theorem idx_cols : ∀ t : Fin cfg0.N, win0_3.index t (0 : Fin 2) = 0
    ∧ win0_3.index t (1 : Fin 2) = win0_15.index t (1 : Fin 2)
    ∧ win0_4.index t (0 : Fin 2) = 0
    ∧ win0_4.index t (1 : Fin 2) = win0_15.index t (1 : Fin 2)
    ∧ win0_5.index t (0 : Fin 2) = 0
    ∧ win0_5.index t (1 : Fin 2) = win0_15.index t (1 : Fin 2)
    ∧ win0_6.index t (0 : Fin 2) = 0
    ∧ win0_6.index t (1 : Fin 2) = win0_15.index t (1 : Fin 2)
    ∧ win0_7.index t (0 : Fin 2) = 0
    ∧ win0_7.index t (1 : Fin 2) = win0_15.index t (1 : Fin 2)
    ∧ win0_8.index t (0 : Fin 2) = 0
    ∧ win0_8.index t (1 : Fin 2) = win0_15.index t (1 : Fin 2)
    ∧ win0_9.index t (0 : Fin 2) = 0
    ∧ win0_9.index t (1 : Fin 2) = win0_15.index t (1 : Fin 2)
    ∧ win0_10.index t (0 : Fin 2) = 0
    ∧ win0_10.index t (1 : Fin 2) = win0_15.index t (1 : Fin 2)
    ∧ win0_11.index t (0 : Fin 2) = 0
    ∧ win0_11.index t (1 : Fin 2) = win0_15.index t (1 : Fin 2)
    ∧ win0_12.index t (0 : Fin 2) = 0
    ∧ win0_12.index t (1 : Fin 2) = win0_15.index t (1 : Fin 2)
    ∧ win0_13.index t (0 : Fin 2) = 0
    ∧ win0_13.index t (1 : Fin 2) = win0_15.index t (1 : Fin 2)
    ∧ win0_14.index t (0 : Fin 2) = 0
    ∧ win0_14.index t (1 : Fin 2) = win0_15.index t (1 : Fin 2) :=
  (by decide +kernel : ∀ t : Fin grid0.N, _)

/-- The result's block indices stay in the 16 × 8 box. -/
theorem idx_bounds : ∀ t : Fin cfg0.N, win0_15.index t (0 : Fin 2) ≤ 15 ∧ win0_15.index t (1 : Fin 2) ≤ 7 :=
  (by decide +kernel : ∀ t : Fin grid0.N, _)

/-- Every block of the 16 × 8 box is some point's. -/
theorem idx_onto : ∀ (q0 : Fin 16) (q1 : Fin 8), ∃ t : Fin cfg0.N, win0_15.index t = ![q0.val, q1.val] :=
  (by decide +kernel : ∀ (q0 : Fin 16) (q1 : Fin 8), ∃ t : Fin grid0.N, win0_15.index t = ![q0.val, q1.val])

/-- The array row that row `p` of point `t`'s blocks is. -/
def rowOf (t : Fin cfg0.N) (p : Fin 256) : Fin 4096 :=
  ⟨win0_15.index t (0 : Fin 2) * 256 + p.val, by have := (idx_bounds t).1; have := p.isLt; omega⟩
/-- The array column that column `q` of point `t`'s blocks is. -/
def colOf (t : Fin cfg0.N) (q : Fin 256) : Fin 2048 :=
  ⟨win0_15.index t (1 : Fin 2) * 256 + q.val, by have := (idx_bounds t).2; have := q.isLt; omega⟩

/-! ## Each input block read as rows and columns of its argument -/

theorem read_0 (c : Dev nD) (t : Fin cfg0.N) (p : Fin 256) (k : Fin 2048) :
    (iblk m c 0 t : Vec Ideal S256x2048 .f32) (ix2 p k) = (m ((c : Thread nD τ).loc main_arg0) : Act.Idx → EReal) (ix2 (rowOf t p) k) := by
  obtain ⟨e0, e1, -, -⟩ := idx_rows t
  show (V m c main_arg0 : S4096x2048.Idx → EReal) (((cfg0.win 0).blk t).view.emb (ix2 p k)) = _
  refine congrArg _ (funext fun a => Fin.ext ?_)
  match a with
  | ⟨0, _⟩ => show win0_0.index t (0 : Fin 2) * 256 + 1 * p.val = win0_15.index t (0 : Fin 2) * 256 + p.val; omega
  | ⟨1, _⟩ => show win0_0.index t (1 : Fin 2) * 2048 + 1 * k.val = k.val; omega
theorem read_2 (c : Dev nD) (t : Fin cfg0.N) (p : Fin 256) (k : Fin 2048) :
    (iblk m c 2 t : Vec Ideal S256x2048 .f32) (ix2 p k) = (m ((c : Thread nD τ).loc main_arg2) : Act.Idx → EReal) (ix2 (rowOf t p) k) := by
  obtain ⟨-, -, e0, e1⟩ := idx_rows t
  show (V m c main_arg2 : S4096x2048.Idx → EReal) (((cfg0.win 2).blk t).view.emb (ix2 p k)) = _
  refine congrArg _ (funext fun a => Fin.ext ?_)
  match a with
  | ⟨0, _⟩ => show win0_2.index t (0 : Fin 2) * 256 + 1 * p.val = win0_15.index t (0 : Fin 2) * 256 + p.val; omega
  | ⟨1, _⟩ => show win0_2.index t (1 : Fin 2) * 2048 + 1 * k.val = k.val; omega
theorem read_1 (c : Dev nD) (t : Fin cfg0.N) (p q : Fin 256) :
    (iblk m c 1 t : Vec Ideal S256x256 .f32) (ix2 p q) = (m ((c : Thread nD τ).loc main_arg1) : Act.Idx → EReal) (ix2 (rowOf t p) (colOf t q)) := by
  obtain ⟨e0, e1, -, -⟩ := idx_same t
  show (V m c main_arg1 : S4096x2048.Idx → EReal) (((cfg0.win 1).blk t).view.emb (ix2 p q)) = _
  refine congrArg _ (funext fun a => Fin.ext ?_)
  match a with
  | ⟨0, _⟩ => show win0_1.index t (0 : Fin 2) * 256 + 1 * p.val = win0_15.index t (0 : Fin 2) * 256 + p.val; omega
  | ⟨1, _⟩ => show win0_1.index t (1 : Fin 2) * 256 + 1 * q.val = win0_15.index t (1 : Fin 2) * 256 + q.val; omega
theorem read_3 (c : Dev nD) (t : Fin cfg0.N) (k : Fin 2048) (q : Fin 256) :
    (iblk m c 3 t : Vec Ideal S2048x256 .f32) (ix2 k q) = (m ((c : Thread nD τ).loc main_arg3) : Wgt.Idx → EReal) (ix2 k (colOf t q)) := by
  have e0 : win0_3.index t (0 : Fin 2) = 0 := (idx_cols t).1
  have e1 : win0_3.index t (1 : Fin 2) = win0_15.index t (1 : Fin 2) := (idx_cols t).2.1
  show (V m c main_arg3 : S2048x2048.Idx → EReal) (((cfg0.win 3).blk t).view.emb (ix2 k q)) = _
  refine congrArg _ (funext fun a => Fin.ext ?_)
  match a with
  | ⟨0, _⟩ => show win0_3.index t (0 : Fin 2) * 2048 + 1 * k.val = k.val; omega
  | ⟨1, _⟩ => show win0_3.index t (1 : Fin 2) * 256 + 1 * q.val = win0_15.index t (1 : Fin 2) * 256 + q.val; omega
theorem read_4 (c : Dev nD) (t : Fin cfg0.N) (k : Fin 2048) (q : Fin 256) :
    (iblk m c 4 t : Vec Ideal S2048x256 .f32) (ix2 k q) = (m ((c : Thread nD τ).loc main_arg4) : Wgt.Idx → EReal) (ix2 k (colOf t q)) := by
  have e0 : win0_4.index t (0 : Fin 2) = 0 := (idx_cols t).2.2.1
  have e1 : win0_4.index t (1 : Fin 2) = win0_15.index t (1 : Fin 2) := (idx_cols t).2.2.2.1
  show (V m c main_arg4 : S2048x2048.Idx → EReal) (((cfg0.win 4).blk t).view.emb (ix2 k q)) = _
  refine congrArg _ (funext fun a => Fin.ext ?_)
  match a with
  | ⟨0, _⟩ => show win0_4.index t (0 : Fin 2) * 2048 + 1 * k.val = k.val; omega
  | ⟨1, _⟩ => show win0_4.index t (1 : Fin 2) * 256 + 1 * q.val = win0_15.index t (1 : Fin 2) * 256 + q.val; omega
theorem read_5 (c : Dev nD) (t : Fin cfg0.N) (k : Fin 2048) (q : Fin 256) :
    (iblk m c 5 t : Vec Ideal S2048x256 .f32) (ix2 k q) = (m ((c : Thread nD τ).loc main_arg5) : Wgt.Idx → EReal) (ix2 k (colOf t q)) := by
  have e0 : win0_5.index t (0 : Fin 2) = 0 := (idx_cols t).2.2.2.2.1
  have e1 : win0_5.index t (1 : Fin 2) = win0_15.index t (1 : Fin 2) := (idx_cols t).2.2.2.2.2.1
  show (V m c main_arg5 : S2048x2048.Idx → EReal) (((cfg0.win 5).blk t).view.emb (ix2 k q)) = _
  refine congrArg _ (funext fun a => Fin.ext ?_)
  match a with
  | ⟨0, _⟩ => show win0_5.index t (0 : Fin 2) * 2048 + 1 * k.val = k.val; omega
  | ⟨1, _⟩ => show win0_5.index t (1 : Fin 2) * 256 + 1 * q.val = win0_15.index t (1 : Fin 2) * 256 + q.val; omega
theorem read_6 (c : Dev nD) (t : Fin cfg0.N) (k : Fin 2048) (q : Fin 256) :
    (iblk m c 6 t : Vec Ideal S2048x256 .f32) (ix2 k q) = (m ((c : Thread nD τ).loc main_arg6) : Wgt.Idx → EReal) (ix2 k (colOf t q)) := by
  have e0 : win0_6.index t (0 : Fin 2) = 0 := (idx_cols t).2.2.2.2.2.2.1
  have e1 : win0_6.index t (1 : Fin 2) = win0_15.index t (1 : Fin 2) := (idx_cols t).2.2.2.2.2.2.2.1
  show (V m c main_arg6 : S2048x2048.Idx → EReal) (((cfg0.win 6).blk t).view.emb (ix2 k q)) = _
  refine congrArg _ (funext fun a => Fin.ext ?_)
  match a with
  | ⟨0, _⟩ => show win0_6.index t (0 : Fin 2) * 2048 + 1 * k.val = k.val; omega
  | ⟨1, _⟩ => show win0_6.index t (1 : Fin 2) * 256 + 1 * q.val = win0_15.index t (1 : Fin 2) * 256 + q.val; omega
theorem read_7 (c : Dev nD) (t : Fin cfg0.N) (k : Fin 2048) (q : Fin 256) :
    (iblk m c 7 t : Vec Ideal S2048x256 .f32) (ix2 k q) = (m ((c : Thread nD τ).loc main_arg7) : Wgt.Idx → EReal) (ix2 k (colOf t q)) := by
  have e0 : win0_7.index t (0 : Fin 2) = 0 := (idx_cols t).2.2.2.2.2.2.2.2.1
  have e1 : win0_7.index t (1 : Fin 2) = win0_15.index t (1 : Fin 2) := (idx_cols t).2.2.2.2.2.2.2.2.2.1
  show (V m c main_arg7 : S2048x2048.Idx → EReal) (((cfg0.win 7).blk t).view.emb (ix2 k q)) = _
  refine congrArg _ (funext fun a => Fin.ext ?_)
  match a with
  | ⟨0, _⟩ => show win0_7.index t (0 : Fin 2) * 2048 + 1 * k.val = k.val; omega
  | ⟨1, _⟩ => show win0_7.index t (1 : Fin 2) * 256 + 1 * q.val = win0_15.index t (1 : Fin 2) * 256 + q.val; omega
theorem read_8 (c : Dev nD) (t : Fin cfg0.N) (k : Fin 2048) (q : Fin 256) :
    (iblk m c 8 t : Vec Ideal S2048x256 .f32) (ix2 k q) = (m ((c : Thread nD τ).loc main_arg8) : Wgt.Idx → EReal) (ix2 k (colOf t q)) := by
  have e0 : win0_8.index t (0 : Fin 2) = 0 := (idx_cols t).2.2.2.2.2.2.2.2.2.2.1
  have e1 : win0_8.index t (1 : Fin 2) = win0_15.index t (1 : Fin 2) := (idx_cols t).2.2.2.2.2.2.2.2.2.2.2.1
  show (V m c main_arg8 : S2048x2048.Idx → EReal) (((cfg0.win 8).blk t).view.emb (ix2 k q)) = _
  refine congrArg _ (funext fun a => Fin.ext ?_)
  match a with
  | ⟨0, _⟩ => show win0_8.index t (0 : Fin 2) * 2048 + 1 * k.val = k.val; omega
  | ⟨1, _⟩ => show win0_8.index t (1 : Fin 2) * 256 + 1 * q.val = win0_15.index t (1 : Fin 2) * 256 + q.val; omega
theorem read_9 (c : Dev nD) (t : Fin cfg0.N) (k : Fin 2048) (q : Fin 256) :
    (iblk m c 9 t : Vec Ideal S2048x256 .f32) (ix2 k q) = (m ((c : Thread nD τ).loc main_arg9) : Wgt.Idx → EReal) (ix2 k (colOf t q)) := by
  have e0 : win0_9.index t (0 : Fin 2) = 0 := (idx_cols t).2.2.2.2.2.2.2.2.2.2.2.2.1
  have e1 : win0_9.index t (1 : Fin 2) = win0_15.index t (1 : Fin 2) := (idx_cols t).2.2.2.2.2.2.2.2.2.2.2.2.2.1
  show (V m c main_arg9 : S2048x2048.Idx → EReal) (((cfg0.win 9).blk t).view.emb (ix2 k q)) = _
  refine congrArg _ (funext fun a => Fin.ext ?_)
  match a with
  | ⟨0, _⟩ => show win0_9.index t (0 : Fin 2) * 2048 + 1 * k.val = k.val; omega
  | ⟨1, _⟩ => show win0_9.index t (1 : Fin 2) * 256 + 1 * q.val = win0_15.index t (1 : Fin 2) * 256 + q.val; omega
theorem read_10 (c : Dev nD) (t : Fin cfg0.N) (k : Fin 2048) (q : Fin 256) :
    (iblk m c 10 t : Vec Ideal S2048x256 .f32) (ix2 k q) = (m ((c : Thread nD τ).loc main_arg10) : Wgt.Idx → EReal) (ix2 k (colOf t q)) := by
  have e0 : win0_10.index t (0 : Fin 2) = 0 := (idx_cols t).2.2.2.2.2.2.2.2.2.2.2.2.2.2.1
  have e1 : win0_10.index t (1 : Fin 2) = win0_15.index t (1 : Fin 2) := (idx_cols t).2.2.2.2.2.2.2.2.2.2.2.2.2.2.2.1
  show (V m c main_arg10 : S2048x2048.Idx → EReal) (((cfg0.win 10).blk t).view.emb (ix2 k q)) = _
  refine congrArg _ (funext fun a => Fin.ext ?_)
  match a with
  | ⟨0, _⟩ => show win0_10.index t (0 : Fin 2) * 2048 + 1 * k.val = k.val; omega
  | ⟨1, _⟩ => show win0_10.index t (1 : Fin 2) * 256 + 1 * q.val = win0_15.index t (1 : Fin 2) * 256 + q.val; omega
theorem read_11 (c : Dev nD) (t : Fin cfg0.N) (q : Fin 256) :
    (iblk m c 11 t : Vec Ideal S1x256 .f32) (ix2 (0 : Fin 1) q) = (m ((c : Thread nD τ).loc main_arg11) : Bias.Idx → EReal) (ix2 (0 : Fin 1) (colOf t q)) := by
  have e0 : win0_11.index t (0 : Fin 2) = 0 := (idx_cols t).2.2.2.2.2.2.2.2.2.2.2.2.2.2.2.2.1
  have e1 : win0_11.index t (1 : Fin 2) = win0_15.index t (1 : Fin 2) := (idx_cols t).2.2.2.2.2.2.2.2.2.2.2.2.2.2.2.2.2.1
  show (V m c main_arg11 : S1x2048.Idx → EReal) (((cfg0.win 11).blk t).view.emb (ix2 (0 : Fin 1) q)) = _
  refine congrArg _ (funext fun a => Fin.ext ?_)
  match a with
  | ⟨0, _⟩ => show win0_11.index t (0 : Fin 2) * 1 + 1 * 0 = 0; omega
  | ⟨1, _⟩ => show win0_11.index t (1 : Fin 2) * 256 + 1 * q.val = win0_15.index t (1 : Fin 2) * 256 + q.val; omega
theorem read_12 (c : Dev nD) (t : Fin cfg0.N) (q : Fin 256) :
    (iblk m c 12 t : Vec Ideal S1x256 .f32) (ix2 (0 : Fin 1) q) = (m ((c : Thread nD τ).loc main_arg12) : Bias.Idx → EReal) (ix2 (0 : Fin 1) (colOf t q)) := by
  have e0 : win0_12.index t (0 : Fin 2) = 0 := (idx_cols t).2.2.2.2.2.2.2.2.2.2.2.2.2.2.2.2.2.2.1
  have e1 : win0_12.index t (1 : Fin 2) = win0_15.index t (1 : Fin 2) := (idx_cols t).2.2.2.2.2.2.2.2.2.2.2.2.2.2.2.2.2.2.2.1
  show (V m c main_arg12 : S1x2048.Idx → EReal) (((cfg0.win 12).blk t).view.emb (ix2 (0 : Fin 1) q)) = _
  refine congrArg _ (funext fun a => Fin.ext ?_)
  match a with
  | ⟨0, _⟩ => show win0_12.index t (0 : Fin 2) * 1 + 1 * 0 = 0; omega
  | ⟨1, _⟩ => show win0_12.index t (1 : Fin 2) * 256 + 1 * q.val = win0_15.index t (1 : Fin 2) * 256 + q.val; omega
theorem read_13 (c : Dev nD) (t : Fin cfg0.N) (q : Fin 256) :
    (iblk m c 13 t : Vec Ideal S1x256 .f32) (ix2 (0 : Fin 1) q) = (m ((c : Thread nD τ).loc main_arg13) : Bias.Idx → EReal) (ix2 (0 : Fin 1) (colOf t q)) := by
  have e0 : win0_13.index t (0 : Fin 2) = 0 := (idx_cols t).2.2.2.2.2.2.2.2.2.2.2.2.2.2.2.2.2.2.2.2.1
  have e1 : win0_13.index t (1 : Fin 2) = win0_15.index t (1 : Fin 2) := (idx_cols t).2.2.2.2.2.2.2.2.2.2.2.2.2.2.2.2.2.2.2.2.2.1
  show (V m c main_arg13 : S1x2048.Idx → EReal) (((cfg0.win 13).blk t).view.emb (ix2 (0 : Fin 1) q)) = _
  refine congrArg _ (funext fun a => Fin.ext ?_)
  match a with
  | ⟨0, _⟩ => show win0_13.index t (0 : Fin 2) * 1 + 1 * 0 = 0; omega
  | ⟨1, _⟩ => show win0_13.index t (1 : Fin 2) * 256 + 1 * q.val = win0_15.index t (1 : Fin 2) * 256 + q.val; omega
theorem read_14 (c : Dev nD) (t : Fin cfg0.N) (q : Fin 256) :
    (iblk m c 14 t : Vec Ideal S1x256 .f32) (ix2 (0 : Fin 1) q) = (m ((c : Thread nD τ).loc main_arg14) : Bias.Idx → EReal) (ix2 (0 : Fin 1) (colOf t q)) := by
  have e0 : win0_14.index t (0 : Fin 2) = 0 := (idx_cols t).2.2.2.2.2.2.2.2.2.2.2.2.2.2.2.2.2.2.2.2.2.2.1
  have e1 : win0_14.index t (1 : Fin 2) = win0_15.index t (1 : Fin 2) := (idx_cols t).2.2.2.2.2.2.2.2.2.2.2.2.2.2.2.2.2.2.2.2.2.2.2
  show (V m c main_arg14 : S1x2048.Idx → EReal) (((cfg0.win 14).blk t).view.emb (ix2 (0 : Fin 1) q)) = _
  refine congrArg _ (funext fun a => Fin.ext ?_)
  match a with
  | ⟨0, _⟩ => show win0_14.index t (0 : Fin 2) * 1 + 1 * 0 = 0; omega
  | ⟨1, _⟩ => show win0_14.index t (1 : Fin 2) * 256 + 1 * q.val = win0_15.index t (1 : Fin 2) * 256 + q.val; omega

/-- Entry (p, q) of the first result's block at point `t` sits at (rowOf t p, colOf t q) of its array … -/
theorem emb_15 (t : Fin cfg0.N) (p q : Fin 256) :
    (((cfg0.win 15).blk t).view.emb (ix2 p q) : S4096x2048.Idx) = ix2 (rowOf t p) (colOf t q) := by
  refine funext fun a => Fin.ext ?_
  match a with
  | ⟨0, _⟩ => show win0_15.index t (0 : Fin 2) * 256 + 1 * p.val = win0_15.index t (0 : Fin 2) * 256 + p.val; omega
  | ⟨1, _⟩ => show win0_15.index t (1 : Fin 2) * 256 + 1 * q.val = win0_15.index t (1 : Fin 2) * 256 + q.val; omega
/-- … and so does the second result's. -/
theorem emb_16 (t : Fin cfg0.N) (p q : Fin 256) :
    (((cfg0.win 16).blk t).view.emb (ix2 p q) : S4096x2048.Idx) = ix2 (rowOf t p) (colOf t q) := by
  obtain ⟨-, -, e0, e1⟩ := idx_same t
  refine funext fun a => Fin.ext ?_
  match a with
  | ⟨0, _⟩ => show win0_16.index t (0 : Fin 2) * 256 + 1 * p.val = win0_15.index t (0 : Fin 2) * 256 + p.val; omega
  | ⟨1, _⟩ => show win0_16.index t (1 : Fin 2) * 256 + 1 * q.val = win0_15.index t (1 : Fin 2) * 256 + q.val; omega

/-! ## What each point writes back, the cover, and the two result arrays -/

/-- The new cell state of the launch arguments. -/
abbrev cellOut (c : Dev nD) : Buf (Elt Ideal) ((c : Thread nD τ).loc main_v0_0) :=
  cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13))
/-- The output of the launch arguments. -/
abbrev hidOut (c : Dev nD) : Buf (Elt Ideal) ((c : Thread nD τ).loc main_v0_1) :=
  hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- WHAT POINT `t` WRITES BACK to the first result is block `t` of the new cell state. -/
theorem flushed15_eq (c : Dev nD) (t : Fin cfg0.N) :
    (dats m 0 c).flushed 15 t = ((cfg0.win 15).blk t).view.read (Elt Ideal) (cellOut m c) := by
  rw [Value.flushed15]
  unfold out0_15
  rw [View.canon_unit_zero hz]
  simp only [View.ld_unit_zero (S := S256x2048) hz, View.ld_unit_zero (S := S256x256) hz, View.ld_unit_zero (S := S2048x256) hz,
    View.ld_unit_zero (S := S1x256) hz]
  funext j
  obtain ⟨p, q, rfl⟩ : ∃ (p q : Fin 256), j = ix2 p q := ⟨j 0, j 1, eq_ix2 j⟩
  show k0_pay1 (k0_pay3 (iblk m c 0 t)) (k0_pay4 (iblk m c 2 t)) (iblk m c 1 t) (k0_pay5 (iblk m c 5 t)) (k0_pay7 (iblk m c 9 t))
      (k0_pay9 (iblk m c 0 t) (iblk m c 2 t) (iblk m c 3 t) (iblk m c 7 t) (iblk m c 11 t)) (k0_pay10 (iblk m c 0 t) (iblk m c 2 t) (iblk m c 4 t) (iblk m c 8 t))
      (iblk m c 12 t) (iblk m c 13 t) (ix2 p q) = cellOut m c (((cfg0.win 15).blk t).view.emb (ix2 p q))
  rw [emb_15]
  exact cell_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13))
    (iblk m c 0 t) (iblk m c 2 t) (iblk m c 1 t) (iblk m c 3 t) (iblk m c 4 t) (iblk m c 5 t) (iblk m c 7 t) (iblk m c 8 t) (iblk m c 9 t) (iblk m c 11 t) (iblk m c 12 t) (iblk m c 13 t) (rowOf t) (colOf t)
    (read_0 m c t) (read_2 m c t) (read_1 m c t) (read_3 m c t) (read_4 m c t) (read_5 m c t) (read_7 m c t) (read_8 m c t) (read_9 m c t) (read_11 m c t) (read_12 m c t) (read_13 m c t) p q

/-- WHAT POINT `t` WRITES BACK to the second result is block `t` of the output. -/
theorem flushed16_eq (c : Dev nD) (t : Fin cfg0.N) :
    (dats m 0 c).flushed 16 t = ((cfg0.win 16).blk t).view.read (Elt Ideal) (hidOut m c) := by
  rw [Value.flushed16]
  unfold out0_16
  rw [View.canon_unit_zero hz]
  simp only [View.ld_unit_zero (S := S256x2048) hz, View.ld_unit_zero (S := S256x256) hz, View.ld_unit_zero (S := S2048x256) hz,
    View.ld_unit_zero (S := S1x256) hz]
  funext j
  obtain ⟨p, q, rfl⟩ : ∃ (p q : Fin 256), j = ix2 p q := ⟨j 0, j 1, eq_ix2 j⟩
  show k0_pay2 (k0_pay3 (iblk m c 0 t)) (k0_pay4 (iblk m c 2 t)) (iblk m c 1 t) (k0_pay5 (iblk m c 5 t)) (k0_pay6 (iblk m c 6 t)) (k0_pay7 (iblk m c 9 t)) (k0_pay8 (iblk m c 10 t))
      (k0_pay9 (iblk m c 0 t) (iblk m c 2 t) (iblk m c 3 t) (iblk m c 7 t) (iblk m c 11 t)) (k0_pay10 (iblk m c 0 t) (iblk m c 2 t) (iblk m c 4 t) (iblk m c 8 t))
      (iblk m c 12 t) (iblk m c 13 t) (iblk m c 14 t) (ix2 p q) = hidOut m c (((cfg0.win 16).blk t).view.emb (ix2 p q))
  rw [emb_16]
  exact hid_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
    (iblk m c 0 t) (iblk m c 2 t) (iblk m c 1 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (rowOf t) (colOf t)
    (read_0 m c t) (read_2 m c t) (read_1 m c t) (read_3 m c t) (read_4 m c t) (read_5 m c t) (read_6 m c t) (read_7 m c t) (read_8 m c t) (read_9 m c t) (read_10 m c t) (read_11 m c t) (read_12 m c t) (read_13 m c t) (read_14 m c t) p q

/-- An index of the first result's array is in point `t`'s block iff each coordinate is in the block's range on its axis. -/
theorem mem_blk15 (t : Fin cfg0.N) (i : S4096x2048.Idx) :
    i ∈ ((cfg0.win 15).blk t).view.set ↔ ∀ a : Fin 2, win0_15.index t a * S256x256.size a ≤ (i a).val ∧ (i a).val < win0_15.index t a * S256x256.size a + S256x256.size a := by
  show i ∈ ((View.whole main_v0_0).slice (win0_15.rect t)).set ↔ _
  rw [View.set_slice_whole, Rect.mem_set_unit]
  exact Iff.rfl
/-- The same for the second result's array. -/
theorem mem_blk16 (t : Fin cfg0.N) (i : S4096x2048.Idx) :
    i ∈ ((cfg0.win 16).blk t).view.set ↔ ∀ a : Fin 2, win0_16.index t a * S256x256.size a ≤ (i a).val ∧ (i a).val < win0_16.index t a * S256x256.size a + S256x256.size a := by
  show i ∈ ((View.whole main_v0_1).slice (win0_16.rect t)).set ↔ _
  rw [View.set_slice_whole, Rect.mem_set_unit]
  exact Iff.rfl

/-- THE COVER: index (r, n) is in the block of the point whose block indices are (r / 256, n / 256). -/
theorem cover15 (i : S4096x2048.Idx) : ∃ t : Fin cfg0.N, (cfg0.win 15).flush t = true ∧ i ∈ ((cfg0.win 15).blk t).view.set := by
  have hi0 : (i 0).val < 4096 := (i 0).isLt
  have hi1 : (i 1).val < 2048 := (i 1).isLt
  obtain ⟨t, ht⟩ := idx_onto ⟨(i 0).val / 256, by omega⟩ ⟨(i 1).val / 256, by omega⟩
  have q0 : win0_15.index t (0 : Fin 2) = (i 0).val / 256 := congrFun ht 0
  have q1 : win0_15.index t (1 : Fin 2) = (i 1).val / 256 := congrFun ht 1
  refine ⟨t, flush0_15 t, ?_⟩
  rw [mem_blk15]
  intro a
  match a with
  | ⟨0, _⟩ => show win0_15.index t (0 : Fin 2) * 256 ≤ (i 0).val ∧ (i 0).val < win0_15.index t (0 : Fin 2) * 256 + 256; omega
  | ⟨1, _⟩ => show win0_15.index t (1 : Fin 2) * 256 ≤ (i 1).val ∧ (i 1).val < win0_15.index t (1 : Fin 2) * 256 + 256; omega
theorem cover16 (i : S4096x2048.Idx) : ∃ t : Fin cfg0.N, (cfg0.win 16).flush t = true ∧ i ∈ ((cfg0.win 16).blk t).view.set := by
  have hi0 : (i 0).val < 4096 := (i 0).isLt
  have hi1 : (i 1).val < 2048 := (i 1).isLt
  obtain ⟨t, ht⟩ := idx_onto ⟨(i 0).val / 256, by omega⟩ ⟨(i 1).val / 256, by omega⟩
  have q0 : win0_15.index t (0 : Fin 2) = (i 0).val / 256 := congrFun ht 0
  have q1 : win0_15.index t (1 : Fin 2) = (i 1).val / 256 := congrFun ht 1
  obtain ⟨-, -, e0, e1⟩ := idx_same t
  refine ⟨t, flush0_16 t, ?_⟩
  rw [mem_blk16]
  intro a
  match a with
  | ⟨0, _⟩ => show win0_16.index t (0 : Fin 2) * 256 ≤ (i 0).val ∧ (i 0).val < win0_16.index t (0 : Fin 2) * 256 + 256; omega
  | ⟨1, _⟩ => show win0_16.index t (1 : Fin 2) * 256 ≤ (i 1).val ∧ (i 1).val < win0_16.index t (1 : Fin 2) * 256 + 256; omega

/-- THE FIRST RESULT ARRAY after the run is the new cell state of the arguments. -/
theorem final15 (c : Dev nD) : (dats m 0 c).arrAt 15 cfg0.N = cellOut m c :=
  (dats m 0 c).arrAt_eq_of_cover 15 (cellOut m c) (fun t _ => flushed15_eq m c t) cover15
/-- THE SECOND RESULT ARRAY after the run is the output of the arguments. -/
theorem final16 (c : Dev nD) : (dats m 0 c).arrAt 16 cfg0.N = hidOut m c :=
  (dats m 0 c).arrAt_eq_of_cover 16 (hidOut m c) (fun t _ => flushed16_eq m c t) cover16

/-- The kernel's run, read: both results at their functions of the arguments, the arguments unchanged. -/
theorem run : θ_run defs (onTc (τ := τ) (main (F := Ideal))) ⟨m, fun _ => 0, ρ⟩ fun r => ∀ c : Dev nD,
      r.2.mem ((c : Thread nD τ).loc main_v0_0) = cellOut m c
      ∧ r.2.mem ((c : Thread nD τ).loc main_v0_1) = hidOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c), (h c).2.1.trans (final16 m c), (h c).2.2⟩)
    (Value.run_blocks m ρ)

end Run

end Cert.KernelIdeal.ArrayCell

end
-- ==== Proof.RefCell.lean ====
/-
  The reference computes the cell update of CellSpec.lean.

  Read one operation at a time at an array index (r, n): each `dot_general` is the inner product of row r of its left
  operand with column n of its right one; a bias is broadcast along the rows, so it reads its entry n; the reference adds
  the bias BEFORE the hidden row's inner product, which is the same sum of three terms. Its sigmoid is spelt
  1 / (1 + exp(−z)), which is the logistic function; its tanh is tanh. The two products and the sum that make the new cell
  state, and the product that makes the output, are then the specification's, term for term.
-/
import proofs.«110335_j16458314678399_2_alg».proof.Proof.Gen.ReferenceIdeal.Read
import proofs.«110335_j16458314678399_2_alg».proof.Proof.CellSpec
import Idealize.ShloMosaic.PureOps.IdealRules

noncomputable section

open scoped BigOperators

namespace Cert.ReferenceIdeal.RefCell

open Cert.ReferenceIdeal Cert.ReferenceIdeal.Gen Cert.ReferenceIdeal.Read Idealize.ShloMosaic Idealize.ShloMosaic.ValueIdx LstmCell

/-- The f32 word of 1.0 denotes the extended real 1. -/
theorem one_word : Ideal.ofBits .f32 0x3F800000#32 = 1 := IdealRules.sign_bit.ideal_onePat .f32

/-! ## The operand indices of each matrix product and bias broadcast, by coordinates -/

theorem lidx0 (i : S4096x2048.Idx) (k : Fin 2048) : lidx_main_v0 i k = ix2 (i 0) k :=
  funext fun a => Fin.ext (by match a with | ⟨0, _⟩ => rfl | ⟨1, _⟩ => rfl)
theorem ridx0 (i : S4096x2048.Idx) (k : Fin 2048) : ridx_main_v0 i k = ix2 k (i 1) :=
  funext fun a => Fin.ext (by match a with | ⟨0, _⟩ => rfl | ⟨1, _⟩ => rfl)
theorem lidx3 (i : S4096x2048.Idx) (k : Fin 2048) : lidx_main_v3 i k = ix2 (i 0) k :=
  funext fun a => Fin.ext (by match a with | ⟨0, _⟩ => rfl | ⟨1, _⟩ => rfl)
theorem ridx3 (i : S4096x2048.Idx) (k : Fin 2048) : ridx_main_v3 i k = ix2 k (i 1) :=
  funext fun a => Fin.ext (by match a with | ⟨0, _⟩ => rfl | ⟨1, _⟩ => rfl)
theorem bidx1 (i : S4096x2048.Idx) : idx_main_v1 i = ix2 (0 : Fin 1) (i 1) :=
  funext fun a => Fin.ext (by match a with | ⟨0, _⟩ => rfl | ⟨1, _⟩ => rfl)
theorem lidx11 (i : S4096x2048.Idx) (k : Fin 2048) : lidx_main_v11 i k = ix2 (i 0) k :=
  funext fun a => Fin.ext (by match a with | ⟨0, _⟩ => rfl | ⟨1, _⟩ => rfl)
theorem ridx11 (i : S4096x2048.Idx) (k : Fin 2048) : ridx_main_v11 i k = ix2 k (i 1) :=
  funext fun a => Fin.ext (by match a with | ⟨0, _⟩ => rfl | ⟨1, _⟩ => rfl)
theorem lidx14 (i : S4096x2048.Idx) (k : Fin 2048) : lidx_main_v14 i k = ix2 (i 0) k :=
  funext fun a => Fin.ext (by match a with | ⟨0, _⟩ => rfl | ⟨1, _⟩ => rfl)
theorem ridx14 (i : S4096x2048.Idx) (k : Fin 2048) : ridx_main_v14 i k = ix2 k (i 1) :=
  funext fun a => Fin.ext (by match a with | ⟨0, _⟩ => rfl | ⟨1, _⟩ => rfl)
theorem bidx12 (i : S4096x2048.Idx) : idx_main_v12 i = ix2 (0 : Fin 1) (i 1) :=
  funext fun a => Fin.ext (by match a with | ⟨0, _⟩ => rfl | ⟨1, _⟩ => rfl)
theorem lidx22 (i : S4096x2048.Idx) (k : Fin 2048) : lidx_main_v22 i k = ix2 (i 0) k :=
  funext fun a => Fin.ext (by match a with | ⟨0, _⟩ => rfl | ⟨1, _⟩ => rfl)
theorem ridx22 (i : S4096x2048.Idx) (k : Fin 2048) : ridx_main_v22 i k = ix2 k (i 1) :=
  funext fun a => Fin.ext (by match a with | ⟨0, _⟩ => rfl | ⟨1, _⟩ => rfl)
theorem lidx25 (i : S4096x2048.Idx) (k : Fin 2048) : lidx_main_v25 i k = ix2 (i 0) k :=
  funext fun a => Fin.ext (by match a with | ⟨0, _⟩ => rfl | ⟨1, _⟩ => rfl)
theorem ridx25 (i : S4096x2048.Idx) (k : Fin 2048) : ridx_main_v25 i k = ix2 k (i 1) :=
  funext fun a => Fin.ext (by match a with | ⟨0, _⟩ => rfl | ⟨1, _⟩ => rfl)
theorem bidx23 (i : S4096x2048.Idx) : idx_main_v23 i = ix2 (0 : Fin 1) (i 1) :=
  funext fun a => Fin.ext (by match a with | ⟨0, _⟩ => rfl | ⟨1, _⟩ => rfl)
theorem lidx33 (i : S4096x2048.Idx) (k : Fin 2048) : lidx_main_v33 i k = ix2 (i 0) k :=
  funext fun a => Fin.ext (by match a with | ⟨0, _⟩ => rfl | ⟨1, _⟩ => rfl)
theorem ridx33 (i : S4096x2048.Idx) (k : Fin 2048) : ridx_main_v33 i k = ix2 k (i 1) :=
  funext fun a => Fin.ext (by match a with | ⟨0, _⟩ => rfl | ⟨1, _⟩ => rfl)
theorem lidx36 (i : S4096x2048.Idx) (k : Fin 2048) : lidx_main_v36 i k = ix2 (i 0) k :=
  funext fun a => Fin.ext (by match a with | ⟨0, _⟩ => rfl | ⟨1, _⟩ => rfl)
theorem ridx36 (i : S4096x2048.Idx) (k : Fin 2048) : ridx_main_v36 i k = ix2 k (i 1) :=
  funext fun a => Fin.ext (by match a with | ⟨0, _⟩ => rfl | ⟨1, _⟩ => rfl)
theorem bidx34 (i : S4096x2048.Idx) : idx_main_v34 i = ix2 (0 : Fin 1) (i 1) :=
  funext fun a => Fin.ext (by match a with | ⟨0, _⟩ => rfl | ⟨1, _⟩ => rfl)

/-! ## The four pre-activations -/

/-- The forget gate's pre-activation: X·W_xf + b_f + H·W_hf at (r, n) is the specification's `gate`. -/
theorem gate_f (x0 x2 : (⟨S4096x2048, .f32⟩ : BufTy).Contents (Elt Ideal)) (x3 x7 : (⟨S2048x2048, .f32⟩ : BufTy).Contents (Elt Ideal)) (x11 : (⟨S1x2048, .f32⟩ : BufTy).Contents (Elt Ideal)) (i : S4096x2048.Idx) :
    val_main_v4 (F := Ideal) x0 x2 x3 x7 x11 i = gate x0 x2 x3 x7 x11 i := by
  rw [val_main_v4_apply, val_main_v2_apply, val_main_v0_apply, val_main_v1_apply, val_main_v3_apply]
  simp only [lidx0, ridx0, bidx1, lidx3, ridx3]
  exact pre_bias_first _ _ _ _ _

/-- The input gate's pre-activation: X·W_xi + b_i + H·W_hi at (r, n) is the specification's `gate`. -/
theorem gate_i (x0 x2 : (⟨S4096x2048, .f32⟩ : BufTy).Contents (Elt Ideal)) (x5 x9 : (⟨S2048x2048, .f32⟩ : BufTy).Contents (Elt Ideal)) (x13 : (⟨S1x2048, .f32⟩ : BufTy).Contents (Elt Ideal)) (i : S4096x2048.Idx) :
    val_main_v15 (F := Ideal) x0 x2 x5 x9 x13 i = gate x0 x2 x5 x9 x13 i := by
  rw [val_main_v15_apply, val_main_v13_apply, val_main_v11_apply, val_main_v12_apply, val_main_v14_apply]
  simp only [lidx11, ridx11, bidx12, lidx14, ridx14]
  exact pre_bias_first _ _ _ _ _

/-- The output gate's pre-activation: X·W_xo + b_o + H·W_ho at (r, n) is the specification's `gate`. -/
theorem gate_o (x0 x2 : (⟨S4096x2048, .f32⟩ : BufTy).Contents (Elt Ideal)) (x6 x10 : (⟨S2048x2048, .f32⟩ : BufTy).Contents (Elt Ideal)) (x14 : (⟨S1x2048, .f32⟩ : BufTy).Contents (Elt Ideal)) (i : S4096x2048.Idx) :
    val_main_v26 (F := Ideal) x0 x2 x6 x10 x14 i = gate x0 x2 x6 x10 x14 i := by
  rw [val_main_v26_apply, val_main_v24_apply, val_main_v22_apply, val_main_v23_apply, val_main_v25_apply]
  simp only [lidx22, ridx22, bidx23, lidx25, ridx25]
  exact pre_bias_first _ _ _ _ _

/-- The candidate gate's pre-activation: X·W_xg + b_g + H·W_hg at (r, n) is the specification's `gate`. -/
theorem gate_g (x0 x2 : (⟨S4096x2048, .f32⟩ : BufTy).Contents (Elt Ideal)) (x4 x8 : (⟨S2048x2048, .f32⟩ : BufTy).Contents (Elt Ideal)) (x12 : (⟨S1x2048, .f32⟩ : BufTy).Contents (Elt Ideal)) (i : S4096x2048.Idx) :
    val_main_v37 (F := Ideal) x0 x2 x4 x8 x12 i = gate x0 x2 x4 x8 x12 i := by
  rw [val_main_v37_apply, val_main_v35_apply, val_main_v33_apply, val_main_v34_apply, val_main_v36_apply]
  simp only [lidx33, ridx33, bidx34, lidx36, ridx36]
  exact pre_bias_first _ _ _ _ _

/-! ## The three sigmoids and the candidate's tanh -/

/-- The forget gate: 1 / (1 + exp(−pre)) is the logistic function of the pre-activation. -/
theorem sig_f (x0 x2 : (⟨S4096x2048, .f32⟩ : BufTy).Contents (Elt Ideal)) (x3 x7 : (⟨S2048x2048, .f32⟩ : BufTy).Contents (Elt Ideal)) (x11 : (⟨S1x2048, .f32⟩ : BufTy).Contents (Elt Ideal)) (i : S4096x2048.Idx) :
    val_main_v10 (F := Ideal) x0 x2 x3 x7 x11 i = Ideal.logistic (gate x0 x2 x3 x7 x11 i) := by
  rw [val_main_v10_apply, val_main_v9_apply, val_main_cst_0_apply, val_main_v8_apply, val_main_v7_apply, val_main_cst_apply,
    val_main_v6_apply, val_main_v5_apply, gate_f]
  show Ideal.div (Ideal.ofBits .f32 0x3F800000#32) (Ideal.ofBits .f32 0x3F800000#32 + Ideal.exp (-(gate x0 x2 x3 x7 x11 i))) = _
  rw [one_word]
  rfl

/-- The input gate: 1 / (1 + exp(−pre)) is the logistic function of the pre-activation. -/
theorem sig_i (x0 x2 : (⟨S4096x2048, .f32⟩ : BufTy).Contents (Elt Ideal)) (x5 x9 : (⟨S2048x2048, .f32⟩ : BufTy).Contents (Elt Ideal)) (x13 : (⟨S1x2048, .f32⟩ : BufTy).Contents (Elt Ideal)) (i : S4096x2048.Idx) :
    val_main_v21 (F := Ideal) x0 x2 x5 x9 x13 i = Ideal.logistic (gate x0 x2 x5 x9 x13 i) := by
  rw [val_main_v21_apply, val_main_v20_apply, val_main_cst_2_apply, val_main_v19_apply, val_main_v18_apply, val_main_cst_1_apply,
    val_main_v17_apply, val_main_v16_apply, gate_i]
  show Ideal.div (Ideal.ofBits .f32 0x3F800000#32) (Ideal.ofBits .f32 0x3F800000#32 + Ideal.exp (-(gate x0 x2 x5 x9 x13 i))) = _
  rw [one_word]
  rfl

/-- The output gate: 1 / (1 + exp(−pre)) is the logistic function of the pre-activation. -/
theorem sig_o (x0 x2 : (⟨S4096x2048, .f32⟩ : BufTy).Contents (Elt Ideal)) (x6 x10 : (⟨S2048x2048, .f32⟩ : BufTy).Contents (Elt Ideal)) (x14 : (⟨S1x2048, .f32⟩ : BufTy).Contents (Elt Ideal)) (i : S4096x2048.Idx) :
    val_main_v32 (F := Ideal) x0 x2 x6 x10 x14 i = Ideal.logistic (gate x0 x2 x6 x10 x14 i) := by
  rw [val_main_v32_apply, val_main_v31_apply, val_main_cst_4_apply, val_main_v30_apply, val_main_v29_apply, val_main_cst_3_apply,
    val_main_v28_apply, val_main_v27_apply, gate_o]
  show Ideal.div (Ideal.ofBits .f32 0x3F800000#32) (Ideal.ofBits .f32 0x3F800000#32 + Ideal.exp (-(gate x0 x2 x6 x10 x14 i))) = _
  rw [one_word]
  rfl

/-- The candidate: tanh of its pre-activation. -/
theorem tanh_g (x0 x2 : (⟨S4096x2048, .f32⟩ : BufTy).Contents (Elt Ideal)) (x4 x8 : (⟨S2048x2048, .f32⟩ : BufTy).Contents (Elt Ideal)) (x12 : (⟨S1x2048, .f32⟩ : BufTy).Contents (Elt Ideal)) (i : S4096x2048.Idx) :
    val_main_v38 (F := Ideal) x0 x2 x4 x8 x12 i = Ideal.tanh (gate x0 x2 x4 x8 x12 i) := by
  rw [val_main_v38_apply, gate_g]
  rfl

/-! ## The two results -/

/-- THE FIRST RESULT of the reference is the specification's new cell state. -/
theorem cell_eq (x0 x1 x2 : (⟨S4096x2048, .f32⟩ : BufTy).Contents (Elt Ideal)) (x3 x4 x5 x7 x8 x9 : (⟨S2048x2048, .f32⟩ : BufTy).Contents (Elt Ideal)) (x11 x12 x13 : (⟨S1x2048, .f32⟩ : BufTy).Contents (Elt Ideal)) :
    val_main_v41 (F := Ideal) x0 x1 x2 x3 x4 x5 x7 x8 x9 x11 x12 x13 = cellArr x0 x1 x2 x3 x4 x5 x7 x8 x9 x11 x12 x13 := by
  funext i
  rw [val_main_v41_apply, val_main_v39_apply, val_main_v40_apply, tanh_g, sig_i, sig_f]
  rfl

/-- THE SECOND RESULT of the reference is the specification's output. -/
theorem hid_eq (x0 x1 x2 : (⟨S4096x2048, .f32⟩ : BufTy).Contents (Elt Ideal)) (x3 x4 x5 x6 x7 x8 x9 x10 : (⟨S2048x2048, .f32⟩ : BufTy).Contents (Elt Ideal)) (x11 x12 x13 x14 : (⟨S1x2048, .f32⟩ : BufTy).Contents (Elt Ideal)) :
    val_main_v43 (F := Ideal) x0 x1 x2 x3 x4 x5 x6 x7 x8 x9 x10 x11 x12 x13 x14 = hidArr x0 x1 x2 x3 x4 x5 x6 x7 x8 x9 x10 x11 x12 x13 x14 := by
  funext i
  rw [val_main_v43_apply, val_main_v42_apply, sig_o, cell_eq]
  rfl

end Cert.ReferenceIdeal.RefCell

end
-- ==== Proof.lean ====
/-
  An LSTM cell on a 4096 × 2048 batch: the kernel against its reference, on the extended reals.

  THE CLAIM. For each of the four gates (forget f, candidate g, input i, output o) both programs form the pre-activation
      pre[r, n] = ∑ₖ X[r,k]·W_x[k,n] + ∑ₖ H[r,k]·W_h[k,n] + b[0,n]
  and then  C' = tanh(pre_g)·σ(pre_i) + σ(pre_f)·C,   Y = σ(pre_o)·tanh(C').
  The kernel tiles the batch in 16 blocks of 256 rows and the features in 8 blocks of 256 columns; one grid point multiplies
  a 256 × 2048 block of X (and of H) with a 2048 × 256 block of each weight matrix, so every inner product runs over all
  2048 terms inside one point and nothing is accumulated across points. It rounds the matrix operands to bf16 (the
  identity on extended reals), adds the two products and then the bias, and applies the logistic function as one operation.
  The reference multiplies the whole arrays, adds the bias between the two products, and spells the logistic function as
  1 / (1 + exp(−z)), which is that function's definition. The only law needed to join the two sides is that addition of
  extended reals is commutative and associative, so the finiteness of the inputs is never used.

  THE PROOF. CellSpec.lean states both results as functions of the fifteen arguments, index by index. RefCell.lean reads the
  reference one operation at a time and finds those functions. BlockCell.lean reads the kernel body's two stored values at
  an entry of a block; ArrayCell.lean places each point's blocks in the arrays, shows that the 128 written blocks are blocks
  of those same functions and cover the results, and re-states the kernel's run with both result arrays named. Below, the
  three frames are the generated ones (the reference's is its generated run with the results dropped), nothing was rewritten
  by the idealization, and the two runs end at the same functions of arguments that agree.
-/
import proofs.«110335_j16458314678399_2_alg».proof.Defs
import proofs.«110335_j16458314678399_2_alg».proof.Proof.Gen.Kernel
import proofs.«110335_j16458314678399_2_alg».proof.Proof.Gen.Kernel.Frame
import proofs.«110335_j16458314678399_2_alg».proof.Proof.Gen.KernelIdeal
import proofs.«110335_j16458314678399_2_alg».proof.Proof.Gen.KernelIdeal.Frame
import proofs.«110335_j16458314678399_2_alg».proof.Proof.Gen.KernelIdeal.Value
import proofs.«110335_j16458314678399_2_alg».proof.Proof.Gen.ReferenceIdeal
import proofs.«110335_j16458314678399_2_alg».proof.Proof.Gen.ReferenceIdeal.Run
import proofs.«110335_j16458314678399_2_alg».proof.Proof.Gen.ReferenceIdeal.Read
import proofs.«110335_j16458314678399_2_alg».proof.Proof.Gen.Pre_finite_inputs
import proofs.«110335_j16458314678399_2_alg».proof.Proof.ArrayCell
import proofs.«110335_j16458314678399_2_alg».proof.Proof.RefCell
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the fifteen arguments, the kernel's two result arrays and the reference's two results are
    the new cell state and the output of those arguments. -/
theorem algebraic : Cert.algebraic_KernelIdeal_ReferenceIdeal := by
  intro m ρ m' ρ' _ hagree
  refine ⟨fun c => Cert.KernelIdeal.ArrayCell.cellOut m c, fun c => Cert.KernelIdeal.ArrayCell.hidOut m c,
    Cert.KernelIdeal.ArrayCell.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v41_eq, Cert.ReferenceIdeal.RefCell.cell_eq,
      a0, a1, a2, a3, a4, a5, a7, a8, a9, a11, a12, a13]
  · obtain ⟨a0, a1, a2, a3, a4, a5, a6, a7, a8, a9, a10, a11, a12, a13, a14⟩ := hagree c
    rw [Cert.ReferenceIdeal.Read.val_main_v43_eq, Cert.ReferenceIdeal.RefCell.hid_eq,
      a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
